-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S100000 : Shape := ⟨1, ![100000]⟩
abbrev S10000 : Shape := ⟨1, ![10000]⟩
abbrev S1x128 : Shape := ⟨2, ![1, 128]⟩
abbrev S128 : Shape := ⟨1, ![128]⟩
abbrev S128x128 : Shape := ⟨2, ![128, 128]⟩
abbrev S2x128x128 : Shape := ⟨3, ![2, 128, 128]⟩
abbrev S2x128 : Shape := ⟨2, ![2, 128]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg10 : FVec F S2x128x128 .f32) (main_arg11 : FVec F S2x128 .f32) (main_v33 : IVec S_ 1) : IVec S_ 1 :=
  let main_v34 : FVec F S2x128x128 .f32 := Host.absf main_arg10
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg11
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  main_v43

def fn_part1 {F : FTy → Type} [FloatOps F] (main_arg7 : FVec F S128 .f32) (main_arg8 : FVec F S2x128x128 .f32) (main_arg9 : FVec F S2x128 .f32) (main_arg10 : FVec F S2x128x128 .f32) (main_arg11 : FVec F S2x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128x128 .f32 := Host.absf main_arg8
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg9
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg10 main_arg11 main_v33

def fn {F : FTy → Type} [FloatOps F] (main_arg0 : FVec F S100000x1 .f32) (main_arg1 : IVec S2x1600000 32) (main_arg2 : IVec S100000 32) (main_arg3 : IVec S10000 32) (main_arg4 : FVec F S1x128 .f32) (main_arg5 : FVec F S128 .f32) (main_arg6 : FVec F S128x128 .f32) (main_arg7 : FVec F S128 .f32) (main_arg8 : FVec F S2x128x128 .f32) (main_arg9 : FVec F S2x128 .f32) (main_arg10 : FVec F S2x128x128 .f32) (main_arg11 : FVec F S2x128 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x128 .f32 := Host.absf main_arg4
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S100000x1 : Shape := ⟨2, ![100000, 1]⟩
abbrev S2x1600000 : Shape := ⟨2, ![2, 1600000]⟩
abbrev S100000 : Shape := ⟨1, ![100000]⟩
abbrev S10000 : Shape := ⟨1, ![10000]⟩
abbrev S1x128 : Shape := ⟨2, ![1, 128]⟩
abbrev S128 : Shape := ⟨1, ![128]⟩
abbrev S128x128 : Shape := ⟨2, ![128, 128]⟩
abbrev S2x128x128 : Shape := ⟨3, ![2, 128, 128]⟩
abbrev S2x128 : Shape := ⟨2, ![2, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S2000x1 : Shape := ⟨2, ![2000, 1]⟩
abbrev S2000x128 : Shape := ⟨2, ![2000, 128]⟩
abbrev S1x128x128 : Shape := ⟨3, ![1, 128, 128]⟩
abbrev S1600000x128 : Shape := ⟨2, ![1600000, 128]⟩
abbrev S10000x128 : Shape := ⟨2, ![10000, 128]⟩
abbrev S64x128 : Shape := ⟨2, ![64, 128]⟩
abbrev S10000x1 : Shape := ⟨2, ![10000, 1]⟩

abbrev nBuf : Space → Nat
  | .hbm => 88
  | .vmem => 30
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S100000, .i32⟩
  | .hbm, ⟨3, _⟩ => ⟨S10000, .i32⟩
  | .hbm, ⟨4, _⟩ => ⟨S1x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x128x128, .f32⟩
  | .hbm, ⟨9, _⟩ => ⟨S2x128, .f32⟩
  | .hbm, ⟨10, _⟩ => ⟨S2x128x128, .f32⟩
  | .hbm, ⟨11, _⟩ => ⟨S2x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x1, .f32⟩
  | .hbm, ⟨25, _⟩ => ⟨S_, .f32⟩
  | .hbm, ⟨26, _⟩ => ⟨S100000x1, .f32⟩
  | .hbm, ⟨27, _⟩ => ⟨S1600000x1, .i32⟩
  | .hbm, ⟨28, _⟩ => ⟨S100000x1, .f32⟩
  | .hbm, ⟨29, _⟩ => ⟨S1x128, .f32⟩
  | .hbm, ⟨30, _⟩ => ⟨S1x128, .f32⟩
  | .hbm, ⟨31, _⟩ => ⟨S100000x128, .f32⟩
  | .hbm, ⟨32, _⟩ => ⟨S1x128x128, .f32⟩
  | .hbm, ⟨33, _⟩ => ⟨S128x128, .f32⟩
  | .hbm, ⟨34, _⟩ => ⟨S1x128, .f32⟩
  | .hbm, ⟨35, _⟩ => ⟨S128, .f32⟩
  | .hbm, ⟨36, _⟩ => ⟨S1x128x128, .f32⟩
  | .hbm, ⟨37, _⟩ => ⟨S128x128, .f32⟩
  | .hbm, ⟨38, _⟩ => ⟨S1x128, .f32⟩
  | .hbm, ⟨39, _⟩ => ⟨S128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128, .f32⟩
  | .hbm, ⟨54, _⟩ => ⟨S1x128, .f32⟩
  | .hbm, ⟨55, _⟩ => ⟨S100000x128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S128, .f32⟩
  | .hbm, ⟨60, _⟩ => ⟨S1x128x128, .f32⟩
  | .hbm, ⟨61, _⟩ => ⟨S128x128, .f32⟩
  | .hbm, ⟨62, _⟩ => ⟨S1x128, .f32⟩
  | .hbm, ⟨63, _⟩ => ⟨S128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S1x128, .f32⟩
  | .hbm, ⟨78, _⟩ => ⟨S1x128, .f32⟩
  | .hbm, ⟨79, _⟩ => ⟨S100000x128, .f32⟩
  | .hbm, ⟨80, _⟩ => ⟨S_, .f32⟩
  | .hbm, ⟨81, _⟩ => ⟨S10000x128, .f32⟩
  | .hbm, ⟨82, _⟩ => ⟨S100000x1, .i32⟩
  | .hbm, ⟨83, _⟩ => ⟨S10000x128, .f32⟩
  | .hbm, ⟨84, _⟩ => ⟨S_, .f32⟩
  | .hbm, ⟨85, _⟩ => ⟨S64x128, .f32⟩
  | .hbm, ⟨86, _⟩ => ⟨S10000x1, .i32⟩
  | .hbm, ⟨87, _⟩ => ⟨S64x128, .f32⟩
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_1 : Ref sig .tc := ⟨.hbm, 40, rfl⟩
abbrev main_v23 : Ref sig .tc := ⟨.hbm, 41, rfl⟩
abbrev main_v24 : Ref sig .tc := ⟨.hbm, 42, rfl⟩
abbrev main_c_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_v0 : Ref sig .tc := ⟨.hbm, 53, rfl⟩
abbrev main_call1_v1 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_4 : Ref sig .tc := ⟨.hbm, 64, rfl⟩
abbrev main_v42 : Ref sig .tc := ⟨.hbm, 65, rfl⟩
abbrev main_v43 : Ref sig .tc := ⟨.hbm, 66, rfl⟩
abbrev main_c_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call2_v0 : Ref sig .tc := ⟨.hbm, 77, rfl⟩
abbrev main_call2_v1 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x1 : S_.BroadcastsInDim S100000x1 (![] : Fin 0 → Fin S100000x1.rank)
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S100000x128 : S_.BroadcastsInDim S100000x128 (![] : Fin 0 → Fin S100000x128.rank)
  shapeCasts_S2000x128_S2000x128 : S2000x128.ShapeCasts S2000x128
  shapeCasts_S128x128_S128x128 : S128x128.ShapeCasts S128x128
  slices_S2x128x128_S1x128x128_1_0_0 : S2x128x128.Slices ![1, 0, 0] S1x128x128
  slices_S2x128_S1x128_1_0 : S2x128.Slices ![1, 0] S1x128
  bcast_S_S10000x128 : S_.BroadcastsInDim S10000x128 (![] : Fin 0 → Fin S10000x128.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S10000_S10000x1_0 : S10000.BroadcastsInDim S10000x1 (![0] : Fin 1 → Fin S10000x1.rank)
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S2000x1_S1x128_S2000x128_1_0_0_1_n_n_wf : DotDims.WF S2000x1 S1x128 S2000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S10000x128_S100000x1_S100000x128_1_0_0_1_wf : ScatterDims.WF S10000x128 S100000x1 S100000x128 [1] [0] [0] 1
  scatter_S64x128_S10000x1_S10000x128_1_0_0_1_wf : ScatterDims.WF S64x128 S10000x1 S10000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .f32 = 32 ∨ (Rect.block (s := S100000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)

variable [Facts₀]

def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S2000x1_S1x128_S2000x128_1_0_0_1_n_n : DotDims S2000x1 S1x128 S2000x128 where
  lhsContracting := [1]
  rhsContracting := [0]
  lhsNonContracting := [0]
  rhsNonContracting := [1]
  lhsBatch := []
  rhsBatch := []
  wf := dot_S2000x1_S1x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S10000x128_S100000x1_S100000x128_1_0_0_1 : ScatterDims S10000x128 S100000x1 S100000x128 where
  updateWindowDims := [1]
  insertedWindowDims := [0]
  scatterDimsToOperandDims := [0]
  indexVectorDim := 1
  wf := scatter_S10000x128_S100000x1_S100000x128_1_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call1_v0) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call1_v1) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v33) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call2_v0) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call2_v1) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S100000 : Shape := ⟨1, ![100000]⟩
abbrev S10000 : Shape := ⟨1, ![10000]⟩
abbrev S1x128 : Shape := ⟨2, ![1, 128]⟩
abbrev S128 : Shape := ⟨1, ![128]⟩
abbrev S128x128 : Shape := ⟨2, ![128, 128]⟩
abbrev S2x128x128 : Shape := ⟨3, ![2, 128, 128]⟩
abbrev S2x128 : Shape := ⟨2, ![2, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S1x128x128 : Shape := ⟨3, ![1, 128, 128]⟩
abbrev S1600000x128 : Shape := ⟨2, ![1600000, 128]⟩
abbrev S10000x128 : Shape := ⟨2, ![10000, 128]⟩
abbrev S64x128 : Shape := ⟨2, ![64, 128]⟩
abbrev S10000x1 : Shape := ⟨2, ![10000, 1]⟩

abbrev nBuf : Space → Nat
  | .hbm => 124
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S100000, .i32⟩
  | .hbm, ⟨3, _⟩ => ⟨S10000, .i32⟩
  | .hbm, ⟨4, _⟩ => ⟨S1x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x128x128, .f32⟩
  | .hbm, ⟨9, _⟩ => ⟨S2x128, .f32⟩
  | .hbm, ⟨10, _⟩ => ⟨S2x128x128, .f32⟩
  | .hbm, ⟨11, _⟩ => ⟨S2x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x1, .f32⟩
  | .hbm, ⟨25, _⟩ => ⟨S_, .f32⟩
  | .hbm, ⟨26, _⟩ => ⟨S100000x1, .f32⟩
  | .hbm, ⟨27, _⟩ => ⟨S1600000x1, .i32⟩
  | .hbm, ⟨28, _⟩ => ⟨S100000x1, .f32⟩
  | .hbm, ⟨29, _⟩ => ⟨S100000x1, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S1x128x128, .f32⟩
  | .hbm, ⟨45, _⟩ => ⟨S128x128, .f32⟩
  | .hbm, ⟨46, _⟩ => ⟨S1x128, .f32⟩
  | .hbm, ⟨47, _⟩ => ⟨S128, .f32⟩
  | .hbm, ⟨48, _⟩ => ⟨S1x128x128, .f32⟩
  | .hbm, ⟨49, _⟩ => ⟨S128x128, .f32⟩
  | .hbm, ⟨50, _⟩ => ⟨S1x128, .f32⟩
  | .hbm, ⟨51, _⟩ => ⟨S128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S1x128x128, .f32⟩
  | .hbm, ⟨81, _⟩ => ⟨S128x128, .f32⟩
  | .hbm, ⟨82, _⟩ => ⟨S1x128, .f32⟩
  | .hbm, ⟨83, _⟩ => ⟨S128, .f32⟩
  | .hbm, ⟨84, _⟩ => ⟨S1x128x128, .f32⟩
  | .hbm, ⟨85, _⟩ => ⟨S128x128, .f32⟩
  | .hbm, ⟨86, _⟩ => ⟨S1x128, .f32⟩
  | .hbm, ⟨87, _⟩ => ⟨S128, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S_, .f32⟩
  | .hbm, ⟨114, _⟩ => ⟨S100000x128, .f32⟩
  | .hbm, ⟨115, _⟩ => ⟨S100000x128, .f32⟩
  | .hbm, ⟨116, _⟩ => ⟨S_, .f32⟩
  | .hbm, ⟨117, _⟩ => ⟨S10000x128, .f32⟩
  | .hbm, ⟨118, _⟩ => ⟨S100000x1, .i32⟩
  | .hbm, ⟨119, _⟩ => ⟨S10000x128, .f32⟩
  | .hbm, ⟨120, _⟩ => ⟨S_, .f32⟩
  | .hbm, ⟨121, _⟩ => ⟨S64x128, .f32⟩
  | .hbm, ⟨122, _⟩ => ⟨S10000x1, .i32⟩
  | .hbm, ⟨123, _⟩ => ⟨S64x128, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_1 : Ref sig .tc := ⟨.hbm, 52, rfl⟩
abbrev main_v33 : Ref sig .tc := ⟨.hbm, 53, rfl⟩
abbrev main_v34 : Ref sig .tc := ⟨.hbm, 54, rfl⟩
abbrev main_c_2 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_3 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call2_cst : Ref sig .tc := ⟨.hbm, 70, rfl⟩
abbrev main_call2_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call3_cst : Ref sig .tc := ⟨.hbm, 77, rfl⟩
abbrev main_call3_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_4 : Ref sig .tc := ⟨.hbm, 88, rfl⟩
abbrev main_v62 : Ref sig .tc := ⟨.hbm, 89, rfl⟩
abbrev main_v63 : Ref sig .tc := ⟨.hbm, 90, rfl⟩
abbrev main_c_5 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_6 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_call4_cst : Ref sig .tc := ⟨.hbm, 106, rfl⟩
abbrev main_call4_v0 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call5_cst : Ref sig .tc := ⟨.hbm, 113, rfl⟩
abbrev main_call5_v0 : Ref sig .tc := ⟨.hbm, 114, rfl⟩
abbrev main_v82 : Ref sig .tc := ⟨.hbm, 115, rfl⟩
abbrev main_cst_7 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_8 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x1 : S_.BroadcastsInDim S100000x1 (![] : Fin 0 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S_S10000x128 : S_.BroadcastsInDim S10000x128 (![] : Fin 0 → Fin S10000x128.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S10000_S10000x1_0 : S10000.BroadcastsInDim S10000x1 (![0] : Fin 1 → Fin S10000x1.rank)
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x128_S100000x128_1_0_0_1_n_n_wf : DotDims.WF S100000x1 S1x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S10000x128_S100000x1_S100000x128_1_0_0_1_wf : ScatterDims.WF S10000x128 S100000x1 S100000x128 [1] [0] [0] 1
  scatter_S64x128_S10000x1_S10000x128_1_0_0_1_wf : ScatterDims.WF S64x128 S10000x1 S10000x128 [1] [0] [0] 1

variable [Facts₀]

def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S10000x128_S100000x1_S100000x128_1_0_0_1 : ScatterDims S10000x128 S100000x1 S100000x128 where
  updateWindowDims := [1]
  insertedWindowDims := [0]
  scatterDimsToOperandDims := [0]
  indexVectorDim := 1
  wf := scatter_S10000x128_S100000x1_S100000x128_1_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf

class Facts : Prop extends Facts₀ where

variable [Facts]
-- ==== Proof.KernelRun.lean ====
/- The kernel program's run with its result buffer named: from any launch memory with zero counters, every weakly
   fair execution of @main on the TensorCores terminates without fault, and in every final state the result buffer holds
   the last boundary's contents of the fold of buffer contents through @main, while every argument array is as launched.
   @main is run as its segments in order, a host stretch or a TensorCore region each, from the thread state "every
   unscoped buffer at the boundary's contents"; the last thread state is read against the final state, the result
   buffer directly and each argument through the fold back to the launch memory. -/
import proofs.«164992_j38474317038530_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result named: the final state's result buffer is the fold's last contents at that
    buffer, and the twelve argument arrays are unchanged. -/
theorem run_named : θ_run defs (onTc (τ := τ) (main (F := F))) ⟨m, fun _ => 0, ρ⟩ (fun r => ∀ c : Dev nD,
      r.2.mem ((c.tc : Thread nD τ).loc main_v58) = W10 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v58 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.RunValue

end
-- ==== Proof.Spec.lean ====
/-
  The function both programs compute, as a composition of named stages over whole arrays.

  A graph with 100000 nodes and 1600000 edges (row 0 of the edge array: sources, row 1: targets).
  One round takes the node features `h`, adds to every node the sum of the features of the sources of its incoming
  edges (`nbrSum`: gather the source rows, scatter-add them at the targets) and applies a perceptron with two dense
  layers, each followed by a maximum with zero (`mlp`). Three rounds (the first from one feature per node, the other
  two from 128), then two sum-poolings: nodes into 10000 groups, groups into 64.
-/
import proofs.«164992_j38474317038530_1_alg».proof.Proof.Gen.ReferenceIdeal

noncomputable section

namespace Cert.Gin

open Idealize.ShloMosaic Cert.ReferenceIdeal Cert.ReferenceIdeal.Gen

variable {F : FTy → Type} [FloatOps F]

local notation "𝕋[" s ", " t "]" => BufTy.Contents (Elt F) (⟨s, t⟩ : BufTy)

/-- Row 0 of the edge array: the source node of every edge. -/
def srcRow (e : 𝕋[S2x1600000, .i32]) : 𝕋[S1600000, .i32] :=
  shapeCast S1600000 (extractStridedSlice S1x1600000 ![0, 0] e slices_S2x1600000_S1x1600000_0_0) shapeCasts_S1x1600000_S1600000

/-- Row 1 of the edge array: the target node of every edge. -/
def dstRow (e : 𝕋[S2x1600000, .i32]) : 𝕋[S1600000, .i32] :=
  shapeCast S1600000 (extractStridedSlice S1x1600000 ![1, 0] e slices_S2x1600000_S1x1600000_1_0) shapeCasts_S1x1600000_S1600000

/-- The sources as a column of start indices, a negative one counted from the end (plus 100000). -/
def srcCol (e : 𝕋[S2x1600000, .i32]) : 𝕋[S1600000x1, .i32] :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32))) (srcRow e))

/-- The targets as a column of scatter indices. -/
def dstCol (e : 𝕋[S2x1600000, .i32]) : 𝕋[S1600000x1, .i32] :=
  broadcastInDim S1600000x1 ![0] bcast_S1600000_S1600000x1_0 (dstRow e)

/-- Per node, the sum over its incoming edges of the source's feature (one feature per node). -/
def nbrSum1 (x : 𝕋[S100000x1, .f32]) (e : 𝕋[S2x1600000, .i32]) : 𝕋[S100000x1, .f32] :=
  Host.scatterAdd scatter_S100000x1_S1600000x1_S1600000x1_1_0_0_1
    (broadcastInDim S100000x1 ![] bcast_S_S100000x1 (constant S_ .f32 0x00000000#32)) (dstCol e)
    (Host.gather gather_S100000x1_S1600000x1_S1600000x1_1_0_n_n_0_1_11 x (srcCol e))

/-- Per node, the sum over its incoming edges of the source's feature row (128 features per node). -/
def nbrSum (h : 𝕋[S100000x128, .f32]) (e : 𝕋[S2x1600000, .i32]) : 𝕋[S100000x128, .f32] :=
  Host.scatterAdd scatter_S100000x128_S1600000x1_S1600000x128_1_0_0_1
    (broadcastInDim S100000x128 ![] bcast_S_S100000x128 (constant S_ .f32 0x00000000#32)) (dstCol e)
    (Host.gather gather_S100000x128_S1600000x1_S1600000x128_1_0_n_n_0_1_1128 h (srcCol e))

/-- A bias vector spread over all node rows. -/
def biasRows (b : 𝕋[S128, .f32]) : 𝕋[S100000x128, .f32] :=
  broadcastInDim S100000x128 ![0, 1] bcast_S1x128_S100000x128_0_1 (broadcastInDim S1x128 ![1] bcast_S128_S1x128_1 b)

/-- The zero array the rectifier compares with. -/
def zeros : 𝕋[S100000x128, .f32] :=
  broadcastInDim S100000x128 ![] bcast_S_S100000x128 (constant S_ .f32 0x00000000#32)

/-- The perceptron of the first round: `max (max ((x + a) · W1 + b1) 0 · W2 + b2) 0`, one input feature. -/
def mlp1 (x a : 𝕋[S100000x1, .f32]) (W1 : 𝕋[S1x128, .f32]) (b1 : 𝕋[S128, .f32]) (W2 : 𝕋[S128x128, .f32]) (b2 : 𝕋[S128, .f32]) :
    𝕋[S100000x128, .f32] :=
  maximumf (addf (Host.dotGeneral dot_S100000x128_S128x128_S100000x128_1_0_0_1_n_n none
    (maximumf (addf (Host.dotGeneral dot_S100000x1_S1x128_S100000x128_1_0_0_1_n_n none (addf x a) W1) (biasRows b1)) zeros)
    W2) (biasRows b2)) zeros

/-- The perceptron of the later rounds: the same with 128 input features. -/
def mlp (h a : 𝕋[S100000x128, .f32]) (W1 : 𝕋[S128x128, .f32]) (b1 : 𝕋[S128, .f32]) (W2 : 𝕋[S128x128, .f32]) (b2 : 𝕋[S128, .f32]) :
    𝕋[S100000x128, .f32] :=
  maximumf (addf (Host.dotGeneral dot_S100000x128_S128x128_S100000x128_1_0_0_1_n_n none
    (maximumf (addf (Host.dotGeneral dot_S100000x128_S128x128_S100000x128_1_0_0_1_n_n none (addf h a) W1) (biasRows b1)) zeros)
    W2) (biasRows b2)) zeros

/-- Matrix 0 and matrix 1 of a stack of two. -/
def mat0 (w : 𝕋[S2x128x128, .f32]) : 𝕋[S128x128, .f32] :=
  shapeCast S128x128 (extractStridedSlice S1x128x128 ![0, 0, 0] w slices_S2x128x128_S1x128x128_0_0_0) shapeCasts_S1x128x128_S128x128
def mat1 (w : 𝕋[S2x128x128, .f32]) : 𝕋[S128x128, .f32] :=
  shapeCast S128x128 (extractStridedSlice S1x128x128 ![1, 0, 0] w slices_S2x128x128_S1x128x128_1_0_0) shapeCasts_S1x128x128_S128x128

/-- Vector 0 and vector 1 of a stack of two. -/
def vec0 (b : 𝕋[S2x128, .f32]) : 𝕋[S128, .f32] :=
  shapeCast S128 (extractStridedSlice S1x128 ![0, 0] b slices_S2x128_S1x128_0_0) shapeCasts_S1x128_S128
def vec1 (b : 𝕋[S2x128, .f32]) : 𝕋[S128, .f32] :=
  shapeCast S128 (extractStridedSlice S1x128 ![1, 0] b slices_S2x128_S1x128_1_0) shapeCasts_S1x128_S128

/-- The two sum-poolings: node rows into their groups, group rows into theirs. -/
def pool (h : 𝕋[S100000x128, .f32]) (g1 : 𝕋[S100000, .i32]) (g2 : 𝕋[S10000, .i32]) : 𝕋[S64x128, .f32] :=
  Host.scatterAdd scatter_S64x128_S10000x1_S10000x128_1_0_0_1
    (broadcastInDim S64x128 ![] bcast_S_S64x128 (constant S_ .f32 0x00000000#32))
    (broadcastInDim S10000x1 ![0] bcast_S10000_S10000x1_0 g2)
    (Host.scatterAdd scatter_S10000x128_S100000x1_S100000x128_1_0_0_1
      (broadcastInDim S10000x128 ![] bcast_S_S10000x128 (constant S_ .f32 0x00000000#32))
      (broadcastInDim S100000x1 ![0] bcast_S100000_S100000x1_0 g1) h)

/-- Round 1, round 2, round 3 of the node features. -/
def round1 (x : 𝕋[S100000x1, .f32]) (e : 𝕋[S2x1600000, .i32]) (W1 : 𝕋[S1x128, .f32]) (b1 : 𝕋[S128, .f32])
    (W2 : 𝕋[S128x128, .f32]) (b2 : 𝕋[S128, .f32]) : 𝕋[S100000x128, .f32] :=
  mlp1 x (nbrSum1 x e) W1 b1 W2 b2

def round (h : 𝕋[S100000x128, .f32]) (e : 𝕋[S2x1600000, .i32]) (W1 : 𝕋[S128x128, .f32]) (b1 : 𝕋[S128, .f32])
    (W2 : 𝕋[S128x128, .f32]) (b2 : 𝕋[S128, .f32]) : 𝕋[S100000x128, .f32] :=
  mlp h (nbrSum h e) W1 b1 W2 b2

/-- The whole function of the twelve argument arrays. -/
def G (a0 : 𝕋[S100000x1, .f32]) (a1 : 𝕋[S2x1600000, .i32]) (a2 : 𝕋[S100000, .i32]) (a3 : 𝕋[S10000, .i32])
    (a4 : 𝕋[S1x128, .f32]) (a5 : 𝕋[S128, .f32]) (a6 : 𝕋[S128x128, .f32]) (a7 : 𝕋[S128, .f32])
    (a8 : 𝕋[S2x128x128, .f32]) (a9 : 𝕋[S2x128, .f32]) (a10 : 𝕋[S2x128x128, .f32]) (a11 : 𝕋[S2x128, .f32]) : 𝕋[S64x128, .f32] :=
  pool (round (round (round1 a0 a1 a4 a5 a6 a7) a1 (mat0 a8) (vec0 a9) (mat0 a10) (vec0 a11))
      a1 (mat1 a8) (vec1 a9) (mat1 a10) (vec1 a11)) a2 a3

end Cert.Gin

end
-- ==== Proof.Walk0.lean ====
/- The buffer contents when the first TensorCore region is entered, read off the fold of buffer contents through the
   host operations that precede it: the node features and the first layer's weights are as launched, the neighbour
   sum of the first round is the specification's, and the two bias vectors are the launched ones as single rows. -/
import proofs.«164992_j38474317038530_1_alg».proof.Proof.Gen.KernelIdeal.Frame
import proofs.«164992_j38474317038530_1_alg».proof.Proof.Spec
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo Cert.KernelIdeal Cert.KernelIdeal.Gen

variable {F : FTy → Type} [FloatOps F]
variable (m : (ℓ : Loc nD τ sig) → Buf (Elt F) ℓ) (ρ : Dev nD → PrngReg)

/-- The node features are as launched: no operation before the region writes them. -/
theorem L2_arg0 (c : Dev nD) : W2 m ρ c (Proc.devRef .tc main_arg0) = m ((c : Thread nD τ).loc main_arg0) := by
  show StableHlo.after hostOps0_1 (StableHlo.after hostOps0 (W0 m ρ c)) (Proc.devRef .tc main_arg0) = _
  after_results

/-- The first round's neighbour sum: the host operations gather the features of the wrapped sources and
    scatter-add them at the targets into zeros, which is the specification's stage on the launched arrays. -/
theorem L2_v13 (c : Dev nD) : W2 m ρ c (Proc.devRef .tc main_v13) = Cert.Gin.nbrSum1 (m ((c : Thread nD τ).loc main_arg0)) (m ((c : Thread nD τ).loc main_arg1)) := by
  show StableHlo.after hostOps0_1 (StableHlo.after hostOps0 (W0 m ρ c)) (Proc.devRef .tc main_v13) = _
  after_results_simp
  rfl

/-- The first layer's weight row is as launched. -/
theorem L2_arg4 (c : Dev nD) : W2 m ρ c (Proc.devRef .tc main_arg4) = m ((c : Thread nD τ).loc main_arg4) := by
  show StableHlo.after hostOps0_1 (StableHlo.after hostOps0 (W0 m ρ c)) (Proc.devRef .tc main_arg4) = _
  after_results

/-- The first bias, reshaped to a single row. -/
theorem L2_b1 (c : Dev nD) : W2 m ρ c (Proc.devRef .tc main_call0_v0) = shapeCast S1x128 (m ((c : Thread nD τ).loc main_arg5)) shapeCasts_S128_S1x128 := by
  show StableHlo.after hostOps0_1 (StableHlo.after hostOps0 (W0 m ρ c)) (Proc.devRef .tc main_call0_v0) = _
  after_results
  rfl

/-- The second layer's weight matrix is as launched. -/
theorem L2_arg6 (c : Dev nD) : W2 m ρ c (Proc.devRef .tc main_arg6) = m ((c : Thread nD τ).loc main_arg6) := by
  show StableHlo.after hostOps0_1 (StableHlo.after hostOps0 (W0 m ρ c)) (Proc.devRef .tc main_arg6) = _
  after_results

/-- The second bias, reshaped to a single row. -/
theorem L2_b2 (c : Dev nD) : W2 m ρ c (Proc.devRef .tc main_call0_v1) = shapeCast S1x128 (m ((c : Thread nD τ).loc main_arg7)) shapeCasts_S128_S1x128 := by
  show StableHlo.after hostOps0_1 (StableHlo.after hostOps0 (W0 m ρ c)) (Proc.devRef .tc main_call0_v1) = _
  after_results
  rfl

end Cert.KernelIdeal.Walk

end
-- ==== Proof.Walk1.lean ====
/-
  The buffer contents at the entry of the second pipelined region, as named stages of the specification.

  Between the first region's exit and the second region's entry the program runs 23 host operations: it slices
  matrix 0 and vector 0 out of each weight stack, recomputes the wrapped source column from the source row,
  gathers the first region's result at the sources and scatter-adds the gathered rows at the targets into zeros,
  and reshapes the two bias vectors to one-row matrices. Each result is the same composition of operations the
  specification names, applied to the launch contents of the arguments and to the first region's result array.
-/
import proofs.«164992_j38474317038530_1_alg».proof.Proof.Gen.KernelIdeal.Frame
import proofs.«164992_j38474317038530_1_alg».proof.Proof.Spec
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo Cert.KernelIdeal Cert.KernelIdeal.Gen

variable {F : FTy → Type} [FloatOps F]
variable (m : (ℓ : Loc nD τ sig) → Buf (Elt F) ℓ) (ρ : Dev nD → PrngReg)

/-! ## What the first region's exit holds at buffers written before it, or never written

The first region touches only its six input arrays and its output array; any other buffer holds at its exit what it
held at its entry, which is what the 19 host operations before it computed (or the launch contents). -/

theorem L3_v1 (c : Dev nD) :
    W3 m ρ c (Proc.devRef .tc main_v1) = Cert.Gin.srcRow (m ((c : Thread nD τ).loc main_arg1)) := by
  rw [W3_of_ne m ρ c main_v1 (by decide)]
  show StableHlo.after hostOps0_1 (StableHlo.after hostOps0 (W0 m ρ c)) (Proc.devRef .tc main_v1) = _
  after_results
  rfl

theorem L3_v3 (c : Dev nD) :
    W3 m ρ c (Proc.devRef .tc main_v3) = Cert.Gin.dstRow (m ((c : Thread nD τ).loc main_arg1)) := by
  rw [W3_of_ne m ρ c main_v3 (by decide)]
  show StableHlo.after hostOps0_1 (StableHlo.after hostOps0 (W0 m ρ c)) (Proc.devRef .tc main_v3) = _
  after_results
  rfl

theorem L3_arg8 (c : Dev nD) :
    W3 m ρ c (Proc.devRef .tc main_arg8) = (m ((c : Thread nD τ).loc main_arg8)) := by
  rw [W3_of_ne m ρ c main_arg8 (by decide)]
  show StableHlo.after hostOps0_1 (StableHlo.after hostOps0 (W0 m ρ c)) (Proc.devRef .tc main_arg8) = _
  after_results

theorem L3_arg9 (c : Dev nD) :
    W3 m ρ c (Proc.devRef .tc main_arg9) = (m ((c : Thread nD τ).loc main_arg9)) := by
  rw [W3_of_ne m ρ c main_arg9 (by decide)]
  show StableHlo.after hostOps0_1 (StableHlo.after hostOps0 (W0 m ρ c)) (Proc.devRef .tc main_arg9) = _
  after_results

theorem L3_arg10 (c : Dev nD) :
    W3 m ρ c (Proc.devRef .tc main_arg10) = (m ((c : Thread nD τ).loc main_arg10)) := by
  rw [W3_of_ne m ρ c main_arg10 (by decide)]
  show StableHlo.after hostOps0_1 (StableHlo.after hostOps0 (W0 m ρ c)) (Proc.devRef .tc main_arg10) = _
  after_results

theorem L3_arg11 (c : Dev nD) :
    W3 m ρ c (Proc.devRef .tc main_arg11) = (m ((c : Thread nD τ).loc main_arg11)) := by
  rw [W3_of_ne m ρ c main_arg11 (by decide)]
  show StableHlo.after hostOps0_1 (StableHlo.after hostOps0 (W0 m ρ c)) (Proc.devRef .tc main_arg11) = _
  after_results

/-! ## The second region's entry -/

/-- The first region's result array is not written again before the second region. -/
theorem L5_v14 (c : Dev nD) :
    W5 m ρ c (Proc.devRef .tc main_v14) = W3 m ρ c (Proc.devRef .tc main_v14) := by
  show StableHlo.after hostOps1_1 (StableHlo.after hostOps1 (W3 m ρ c)) (Proc.devRef .tc main_v14) = _
  after_results

/-- The neighbour sum of the first region's result. -/
theorem L5_v32 (c : Dev nD) :
    W5 m ρ c (Proc.devRef .tc main_v32) = Cert.Gin.nbrSum (W3 m ρ c (Proc.devRef .tc main_v14)) (m ((c : Thread nD τ).loc main_arg1)) := by
  show StableHlo.after hostOps1_1 (StableHlo.after hostOps1 (W3 m ρ c)) (Proc.devRef .tc main_v32) = _
  after_results_simp
  rw [L3_v1 m ρ c, L3_v3 m ρ c]
  rfl

/-- Matrix 0 of the first weight stack. -/
theorem L5_v16 (c : Dev nD) :
    W5 m ρ c (Proc.devRef .tc main_v16) = Cert.Gin.mat0 (m ((c : Thread nD τ).loc main_arg8)) := by
  show StableHlo.after hostOps1_1 (StableHlo.after hostOps1 (W3 m ρ c)) (Proc.devRef .tc main_v16) = _
  after_results
  rw [L3_arg8 m ρ c]
  rfl

/-- Vector 0 of the first bias stack, as a one-row matrix. -/
theorem L5_b1 (c : Dev nD) :
    W5 m ρ c (Proc.devRef .tc main_call1_v0) = shapeCast S1x128 (Cert.Gin.vec0 (m ((c : Thread nD τ).loc main_arg9))) shapeCasts_S128_S1x128 := by
  show StableHlo.after hostOps1_1 (StableHlo.after hostOps1 (W3 m ρ c)) (Proc.devRef .tc main_call1_v0) = _
  after_results
  rw [L3_arg9 m ρ c]
  rfl

/-- Matrix 0 of the second weight stack. -/
theorem L5_v20 (c : Dev nD) :
    W5 m ρ c (Proc.devRef .tc main_v20) = Cert.Gin.mat0 (m ((c : Thread nD τ).loc main_arg10)) := by
  show StableHlo.after hostOps1_1 (StableHlo.after hostOps1 (W3 m ρ c)) (Proc.devRef .tc main_v20) = _
  after_results
  rw [L3_arg10 m ρ c]
  rfl

/-- Vector 0 of the second bias stack, as a one-row matrix. -/
theorem L5_b2 (c : Dev nD) :
    W5 m ρ c (Proc.devRef .tc main_call1_v1) = shapeCast S1x128 (Cert.Gin.vec0 (m ((c : Thread nD τ).loc main_arg11))) shapeCasts_S128_S1x128 := by
  show StableHlo.after hostOps1_1 (StableHlo.after hostOps1 (W3 m ρ c)) (Proc.devRef .tc main_call1_v1) = _
  after_results
  rw [L3_arg11 m ρ c]
  rfl

end Cert.KernelIdeal.Walk

end
-- ==== Proof.Walk2.lean ====
/-
  The buffer contents at the entry of the third pipelined region, as named stages of the specification.

  Between the second region's exit and the third region's entry the program runs 23 host operations: it slices
  matrix 1 and vector 1 out of each weight stack, recomputes the wrapped source column from the source row,
  gathers the second region's result at the sources and scatter-adds the gathered rows at the targets into zeros,
  and reshapes the two bias vectors to one-row matrices. Each result is the same composition of operations the
  specification names, applied to the launch contents of the arguments and to the second region's result array.
-/
import proofs.«164992_j38474317038530_1_alg».proof.Proof.Gen.KernelIdeal.Frame
import proofs.«164992_j38474317038530_1_alg».proof.Proof.Spec
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo Cert.KernelIdeal Cert.KernelIdeal.Gen

variable {F : FTy → Type} [FloatOps F]
variable (m : (ℓ : Loc nD τ sig) → Buf (Elt F) ℓ) (ρ : Dev nD → PrngReg)

/-! ## What the second region's exit holds at buffers written before the first region, or never written

The second region touches only its six input arrays and its output array, and so does the first; neither the 23 host
operations between them nor the two reshapes before the first region write the source row, the target row or a weight
stack. So at the second region's exit these buffers hold what the first 17 host operations computed (or the launch
contents). -/

theorem L6_v1 (c : Dev nD) :
    W6 m ρ c (Proc.devRef .tc main_v1) = Cert.Gin.srcRow (m ((c : Thread nD τ).loc main_arg1)) := by
  rw [W6_of_ne m ρ c main_v1 (by decide)]
  show StableHlo.after hostOps1_1 (StableHlo.after hostOps1 (W3 m ρ c)) (Proc.devRef .tc main_v1) = _
  after_results
  rw [W3_of_ne m ρ c main_v1 (by decide)]
  show StableHlo.after hostOps0_1 (StableHlo.after hostOps0 (W0 m ρ c)) (Proc.devRef .tc main_v1) = _
  after_results
  rfl

theorem L6_v3 (c : Dev nD) :
    W6 m ρ c (Proc.devRef .tc main_v3) = Cert.Gin.dstRow (m ((c : Thread nD τ).loc main_arg1)) := by
  rw [W6_of_ne m ρ c main_v3 (by decide)]
  show StableHlo.after hostOps1_1 (StableHlo.after hostOps1 (W3 m ρ c)) (Proc.devRef .tc main_v3) = _
  after_results
  rw [W3_of_ne m ρ c main_v3 (by decide)]
  show StableHlo.after hostOps0_1 (StableHlo.after hostOps0 (W0 m ρ c)) (Proc.devRef .tc main_v3) = _
  after_results
  rfl

theorem L6_arg8 (c : Dev nD) :
    W6 m ρ c (Proc.devRef .tc main_arg8) = (m ((c : Thread nD τ).loc main_arg8)) := by
  rw [W6_of_ne m ρ c main_arg8 (by decide)]
  show StableHlo.after hostOps1_1 (StableHlo.after hostOps1 (W3 m ρ c)) (Proc.devRef .tc main_arg8) = _
  after_results
  rw [W3_of_ne m ρ c main_arg8 (by decide)]
  show StableHlo.after hostOps0_1 (StableHlo.after hostOps0 (W0 m ρ c)) (Proc.devRef .tc main_arg8) = _
  after_results

theorem L6_arg9 (c : Dev nD) :
    W6 m ρ c (Proc.devRef .tc main_arg9) = (m ((c : Thread nD τ).loc main_arg9)) := by
  rw [W6_of_ne m ρ c main_arg9 (by decide)]
  show StableHlo.after hostOps1_1 (StableHlo.after hostOps1 (W3 m ρ c)) (Proc.devRef .tc main_arg9) = _
  after_results
  rw [W3_of_ne m ρ c main_arg9 (by decide)]
  show StableHlo.after hostOps0_1 (StableHlo.after hostOps0 (W0 m ρ c)) (Proc.devRef .tc main_arg9) = _
  after_results

theorem L6_arg10 (c : Dev nD) :
    W6 m ρ c (Proc.devRef .tc main_arg10) = (m ((c : Thread nD τ).loc main_arg10)) := by
  rw [W6_of_ne m ρ c main_arg10 (by decide)]
  show StableHlo.after hostOps1_1 (StableHlo.after hostOps1 (W3 m ρ c)) (Proc.devRef .tc main_arg10) = _
  after_results
  rw [W3_of_ne m ρ c main_arg10 (by decide)]
  show StableHlo.after hostOps0_1 (StableHlo.after hostOps0 (W0 m ρ c)) (Proc.devRef .tc main_arg10) = _
  after_results

theorem L6_arg11 (c : Dev nD) :
    W6 m ρ c (Proc.devRef .tc main_arg11) = (m ((c : Thread nD τ).loc main_arg11)) := by
  rw [W6_of_ne m ρ c main_arg11 (by decide)]
  show StableHlo.after hostOps1_1 (StableHlo.after hostOps1 (W3 m ρ c)) (Proc.devRef .tc main_arg11) = _
  after_results
  rw [W3_of_ne m ρ c main_arg11 (by decide)]
  show StableHlo.after hostOps0_1 (StableHlo.after hostOps0 (W0 m ρ c)) (Proc.devRef .tc main_arg11) = _
  after_results

/-! ## The third region's entry -/

/-- The second region's result array is not written again before the third region. -/
theorem L8_v33 (c : Dev nD) :
    W8 m ρ c (Proc.devRef .tc main_v33) = W6 m ρ c (Proc.devRef .tc main_v33) := by
  show StableHlo.after hostOps2_1 (StableHlo.after hostOps2 (W6 m ρ c)) (Proc.devRef .tc main_v33) = _
  after_results

/-- The neighbour sum of the second region's result. -/
theorem L8_v51 (c : Dev nD) :
    W8 m ρ c (Proc.devRef .tc main_v51) = Cert.Gin.nbrSum (W6 m ρ c (Proc.devRef .tc main_v33)) (m ((c : Thread nD τ).loc main_arg1)) := by
  show StableHlo.after hostOps2_1 (StableHlo.after hostOps2 (W6 m ρ c)) (Proc.devRef .tc main_v51) = _
  after_results_simp
  rw [L6_v1 m ρ c, L6_v3 m ρ c]
  rfl

/-- Matrix 1 of the first weight stack. -/
theorem L8_v35 (c : Dev nD) :
    W8 m ρ c (Proc.devRef .tc main_v35) = Cert.Gin.mat1 (m ((c : Thread nD τ).loc main_arg8)) := by
  show StableHlo.after hostOps2_1 (StableHlo.after hostOps2 (W6 m ρ c)) (Proc.devRef .tc main_v35) = _
  after_results
  rw [L6_arg8 m ρ c]
  rfl

/-- Vector 1 of the first bias stack, as a one-row matrix. -/
theorem L8_b1 (c : Dev nD) :
    W8 m ρ c (Proc.devRef .tc main_call2_v0) = shapeCast S1x128 (Cert.Gin.vec1 (m ((c : Thread nD τ).loc main_arg9))) shapeCasts_S128_S1x128 := by
  show StableHlo.after hostOps2_1 (StableHlo.after hostOps2 (W6 m ρ c)) (Proc.devRef .tc main_call2_v0) = _
  after_results
  rw [L6_arg9 m ρ c]
  rfl

/-- Matrix 1 of the second weight stack. -/
theorem L8_v39 (c : Dev nD) :
    W8 m ρ c (Proc.devRef .tc main_v39) = Cert.Gin.mat1 (m ((c : Thread nD τ).loc main_arg10)) := by
  show StableHlo.after hostOps2_1 (StableHlo.after hostOps2 (W6 m ρ c)) (Proc.devRef .tc main_v39) = _
  after_results
  rw [L6_arg10 m ρ c]
  rfl

/-- Vector 1 of the second bias stack, as a one-row matrix. -/
theorem L8_b2 (c : Dev nD) :
    W8 m ρ c (Proc.devRef .tc main_call2_v1) = shapeCast S1x128 (Cert.Gin.vec1 (m ((c : Thread nD τ).loc main_arg11))) shapeCasts_S128_S1x128 := by
  show StableHlo.after hostOps2_1 (StableHlo.after hostOps2 (W6 m ρ c)) (Proc.devRef .tc main_call2_v1) = _
  after_results
  rw [L6_arg11 m ρ c]
  rfl

end Cert.KernelIdeal.Walk

end
-- ==== Proof.Walk3.lean ====
/- The last stretch of host operations: after the third TensorCore region the two group-index arrays are still as
   launched, and the result buffer holds the specification's two sum-poolings of the region's output rows. -/
import proofs.«164992_j38474317038530_1_alg».proof.Proof.Gen.KernelIdeal.Frame
import proofs.«164992_j38474317038530_1_alg».proof.Proof.Spec
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo Cert.KernelIdeal Cert.KernelIdeal.Gen

variable {F : FTy → Type} [FloatOps F]
variable (m : (ℓ : Loc nD τ sig) → Buf (Elt F) ℓ) (ρ : Dev nD → PrngReg)

/-- The node-to-group indices at the third region's exit are as launched: the closing host operations do not
    write them, and through the whole run they end as launched. -/
theorem L9_arg2 (c : Dev nD) : W9 m ρ c (Proc.devRef .tc main_arg2) = m ((c : Thread nD τ).loc main_arg2) :=
  (StableHlo.after_of_forall_not_mem (b := Proc.devRef .tc main_arg2) hostOps3 (W9 m ρ c) (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans (W10_main_arg2 m ρ c)

/-- The group-to-group indices at the third region's exit are as launched, for the same reason. -/
theorem L9_arg3 (c : Dev nD) : W9 m ρ c (Proc.devRef .tc main_arg3) = m ((c : Thread nD τ).loc main_arg3) :=
  (StableHlo.after_of_forall_not_mem (b := Proc.devRef .tc main_arg3) hostOps3 (W9 m ρ c) (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans (W10_main_arg3 m ρ c)

/-- The result: the closing host operations scatter-add the third region's output rows into their groups and the
    group rows into theirs, each from zeros, which is the specification's pooling stage on the launched indices. -/
theorem L10_v58 (c : Dev nD) :
    W10 m ρ c (Proc.devRef .tc main_v58) = Cert.Gin.pool (W9 m ρ c (Proc.devRef .tc main_v52)) (m ((c : Thread nD τ).loc main_arg2)) (m ((c : Thread nD τ).loc main_arg3)) := by
  show StableHlo.after hostOps3 (W9 m ρ c) (Proc.devRef .tc main_v58) = _
  after_results
  rw [L9_arg2 m ρ c, L9_arg3 m ρ c]
  rfl

end Cert.KernelIdeal.Walk

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«164992_j38474317038530_1_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.LibMlpRows.lean ====
/-
  The two-layer perceptron of one round, read one node row at a time on the extended reals.

  For a row `z` of input features, `mlpRow z W1 b1 W2 b2 = max (max (z · W1 + b1) 0 · W2 + b2) 0` (the maxima
  entrywise). Row `r` of the perceptron applied to `x + a` depends on row `r` of `x` and of `a` alone, so the same
  function of the row comes out whether the perceptron is spelt over a block of rows (matrix products accumulated into
  zeros, the biases held as one-row matrices spread over the rows, changes of float format in between, which are the
  identity on the extended reals) or over all rows at once (host contractions, the biases broadcast in dimension).
-/
import Idealize.ShloMosaic.Lib.ValueLayout
import Idealize.ShloMosaic.Lib.ValueIdx
import Idealize.ShloMosaic.PureOps.Ideal.Laws
import proofs.«164992_j38474317038530_1_alg».proof.Proof.LibDenseRows
import proofs.«164992_j38474317038530_1_alg».proof.Proof.LibBlockRows

noncomputable section

namespace Cert.MlpRows

open Idealize.ShloMosaic Idealize.ShloMosaic.ValueIdx Cert.DenseRows Cert.LibBlockRows

/-- The perceptron on one row. -/
def mlpRow {K H : ℕ} (z : Fin K → EReal) (W1 : Fin K → Fin H → EReal) (b1 : Fin H → EReal)
    (W2 : Fin H → Fin H → EReal) (b2 : Fin H → EReal) : Fin H → EReal :=
  floorAt (Ideal.ofBits .f32 0x00000000#32) (affine (floorAt (Ideal.ofBits .f32 0x00000000#32) (affine z W1 b1)) W2 b2)

/-- Row `r` of the perceptron spelt over a block of `R` rows. -/
theorem block_row {R K H : ℕ} (d1 : DotDims ⟨2, ![R, K]⟩ ⟨2, ![K, H]⟩ ⟨2, ![R, H]⟩) (hd1 : d1 = DotDims.plain R K H)
    (d2 : DotDims ⟨2, ![R, H]⟩ ⟨2, ![H, H]⟩ ⟨2, ![R, H]⟩) (hd2 : d2 = DotDims.plain R H H)
    (x a : FVec Ideal ⟨2, ![R, K]⟩ .f32) (w1 : FVec Ideal ⟨2, ![K, H]⟩ .f32) (b1 : FVec Ideal ⟨2, ![1, H]⟩ .f32)
    (w2 : FVec Ideal ⟨2, ![H, H]⟩ .f32) (b2 : FVec Ideal ⟨2, ![1, H]⟩ .f32)
    (hlt : FTy.bf16.bits < FTy.f32.bits) (hb : (⟨2, ![1, H]⟩ : Shape).Broadcasts ⟨2, ![R, H]⟩) (r : Fin R) :
    row (maximumf (addf (matmul d2 none
        (truncf .bf16 (maximumf (addf (matmul d1 none (truncf .bf16 (addf x a) hlt) (truncf .bf16 w1 hlt)
            (constant (F := Ideal) ⟨2, ![R, H]⟩ .f32 0x00000000#32)) (broadcastTo ⟨2, ![R, H]⟩ b1 hb))
          (broadcast ⟨2, ![R, H]⟩ (Scalar.ofBits (F := Ideal) .f32 0x00000000#32))) hlt)
        (truncf .bf16 w2 hlt) (constant (F := Ideal) ⟨2, ![R, H]⟩ .f32 0x00000000#32)) (broadcastTo ⟨2, ![R, H]⟩ b2 hb))
      (broadcast ⟨2, ![R, H]⟩ (Scalar.ofBits (F := Ideal) .f32 0x00000000#32))) r
      = mlpRow (fun k => row x r k + row a r k) (mat w1) (row b1 (0 : Fin 1)) (mat w2) (row b2 (0 : Fin 1)) := by
  rw [row_max_splat, row_matmul_rowbias d2 hd2, row_truncf, row_max_splat, row_matmul_rowbias d1 hd1, row_truncf]
  rfl

/-- Row `r` of the perceptron spelt over all `R` rows at once. -/
theorem whole_row {R K H : ℕ} (d1 : DotDims ⟨2, ![R, K]⟩ ⟨2, ![K, H]⟩ ⟨2, ![R, H]⟩) (hd1 : d1 = DotDims.plain R K H)
    (d2 : DotDims ⟨2, ![R, H]⟩ ⟨2, ![H, H]⟩ ⟨2, ![R, H]⟩) (hd2 : d2 = DotDims.plain R H H)
    (x a : FVec Ideal ⟨2, ![R, K]⟩ .f32) (w1 : FVec Ideal ⟨2, ![K, H]⟩ .f32) (b1 : FVec Ideal ⟨1, ![H]⟩ .f32)
    (w2 : FVec Ideal ⟨2, ![H, H]⟩ .f32) (b2 : FVec Ideal ⟨1, ![H]⟩ .f32)
    (h1 : (⟨1, ![H]⟩ : Shape).BroadcastsInDim ⟨2, ![1, H]⟩ ![1])
    (h2 : (⟨2, ![1, H]⟩ : Shape).BroadcastsInDim ⟨2, ![R, H]⟩ ![0, 1])
    (dims : Fin (⟨0, ![]⟩ : Shape).rank → Fin (⟨2, ![R, H]⟩ : Shape).rank)
    (h0 : (⟨0, ![]⟩ : Shape).BroadcastsInDim ⟨2, ![R, H]⟩ dims) (r : Fin R) :
    row (maximumf (addf (Host.dotGeneral d2 none
        (maximumf (addf (Host.dotGeneral d1 none (addf x a) w1)
            (broadcastInDim ⟨2, ![R, H]⟩ ![0, 1] h2 (broadcastInDim ⟨2, ![1, H]⟩ ![1] h1 b1)))
          (broadcastInDim ⟨2, ![R, H]⟩ dims h0 (constant (F := Ideal) ⟨0, ![]⟩ .f32 0x00000000#32)))
        w2) (broadcastInDim ⟨2, ![R, H]⟩ ![0, 1] h2 (broadcastInDim ⟨2, ![1, H]⟩ ![1] h1 b2)))
      (broadcastInDim ⟨2, ![R, H]⟩ dims h0 (constant (F := Ideal) ⟨0, ![]⟩ .f32 0x00000000#32))) r
      = mlpRow (fun k => row x r k + row a r k) (mat w1) (vec b1) (mat w2) (vec b2) := by
  rw [row_max_splatInDim, row_dotGeneral_bias d2 hd2, row_max_splatInDim, row_dotGeneral_bias d1 hd1]
  rfl

/-- Two `[R, N]` arrays with the same rows are the same array. -/
theorem ext_rows {R N : ℕ} (u v : (⟨2, ![R, N]⟩ : Shape).Idx → EReal) (h : ∀ r : Fin R, row u r = row v r) : u = v := by
  funext j
  obtain ⟨p, q, rfl⟩ : ∃ (p : Fin R) (q : Fin N), j = ix2 p q := ⟨j 0, j 1, eq_ix2 j⟩
  exact congrFun (h p) q

end Cert.MlpRows

end
-- ==== Proof.Region0.lean ====
/-
  What the first round's kernel region leaves in its output array.

  The region walks 50 blocks of 2000 node rows. At block `t` the body reads rows `2000 t … 2000 t + 1999` of the
  features (one per node) and of the neighbour sums, both weight matrices and both one-row biases whole, and writes the perceptron
  of those rows to the same rows of the output. Row `r` of the perceptron depends on row `r` of its two row operands
  alone, so the blocks together are the perceptron of the whole arrays.
-/
import proofs.«164992_j38474317038530_1_alg».proof.Proof.Gen.KernelIdeal.Frame
import proofs.«164992_j38474317038530_1_alg».proof.Proof.Spec
import proofs.«164992_j38474317038530_1_alg».proof.Proof.LibMlpRows
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.DenseRows Cert.MlpRows
open Idealize.ShloMosaic.Pipeline (Dat)

theorem zero_off0 : (![0, 0] : Fin 2 → Nat) = fun _ => 0 := funext fun a => by fin_cases a <;> rfl

/-- Row `p` of the body's stored value, from the rows of its loaded blocks. -/
theorem pay0_row (x0 x1 : Vec Ideal S2000x1 .f32) (x2 : Vec Ideal S1x128 .f32) (x3 : Vec Ideal S1x128 .f32)
    (x4 : Vec Ideal S128x128 .f32) (x5 : Vec Ideal S1x128 .f32) (p : Fin 2000) :
    row (k0_pay1 (F := Ideal) x0 x1 x2 x3 x4 x5) p
      = mlpRow (fun k => row x0 p k + row x1 p k) (mat x2) (row x3 (0 : Fin 1)) (mat x4) (row x5 (0 : Fin 1)) := by
  unfold k0_pay1
  simp only [shapeCast_self]
  exact block_row _ rfl _ rfl x0 x1 x2 x3 x4 x5 _ _ p

/-- A vector reshaped to a one-row matrix: its only row is the vector. -/
theorem row_reshape0 (b : FVec Ideal S128 .f32) :
    row (shapeCast S1x128 b shapeCasts_S128_S1x128) (0 : Fin 1) = vec b := by
  funext n
  show shapeCast S1x128 b shapeCasts_S128_S1x128 (ix2 (0 : Fin 1) n) = b (ix1 n)
  rw [shapeCast_a_1a_apply]

/-- Row `r` of the specification's perceptron over all rows. -/
theorem mlp1_row (h a : FVec Ideal S100000x1 .f32) (W1 : FVec Ideal S1x128 .f32) (b1 : FVec Ideal S128 .f32)
    (W2 : FVec Ideal S128x128 .f32) (b2 : FVec Ideal S128 .f32) (r : Fin 100000) :
    row (Cert.Gin.mlp1 (F := Ideal) h a W1 b1 W2 b2) r
      = mlpRow (fun k => row h r k + row a r k) (mat W1) (vec b1) (mat W2) (vec b2) := by
  unfold Cert.Gin.mlp1 Cert.Gin.biasRows Cert.Gin.zeros
  exact whole_row _ rfl _ rfl h a W1 b1 W2 b2 _ _ _ _ r

/-- Row `p` of a block whose row operands hold row `r` of the whole arrays there, and whose other operands are the
    weights and the reshaped biases, is row `r` of the perceptron over all rows. -/
theorem block_is_rows0 (X0 X1 : Vec Ideal S2000x1 .f32) (X2 : Vec Ideal S1x128 .f32) (X3 : Vec Ideal S1x128 .f32)
    (X4 : Vec Ideal S128x128 .f32) (X5 : Vec Ideal S1x128 .f32)
    (h a : FVec Ideal S100000x1 .f32) (W1 : FVec Ideal S1x128 .f32) (b1 : FVec Ideal S128 .f32)
    (W2 : FVec Ideal S128x128 .f32) (b2 : FVec Ideal S128 .f32) (r : Fin 100000) (p : Fin 2000)
    (h0 : ∀ k : Fin 1, X0 (ix2 p k) = h (ix2 r k)) (h1 : ∀ k : Fin 1, X1 (ix2 p k) = a (ix2 r k))
    (h2 : X2 = W1) (h3 : X3 = shapeCast S1x128 b1 shapeCasts_S128_S1x128)
    (h4 : X4 = W2) (h5 : X5 = shapeCast S1x128 b2 shapeCasts_S128_S1x128) (q : Fin 128) :
    k0_pay1 (F := Ideal) X0 X1 X2 X3 X4 X5 (ix2 p q) = Cert.Gin.mlp1 (F := Ideal) h a W1 b1 W2 b2 (ix2 r q) := by
  have hl := congrFun (pay0_row X0 X1 X2 X3 X4 X5 p) q
  have hr := congrFun (mlp1_row h a W1 b1 W2 b2 r) q
  refine hl.trans (Eq.trans ?_ hr.symm)
  subst h2 h3 h4 h5
  rw [row_reshape0, row_reshape0]
  have hz : (fun k => row X0 p k + row X1 p k) = fun k => row h r k + row a r k :=
    funext fun k => congrArg₂ (· + ·) (h0 k) (h1 k)
  rw [hz]

/-- Where the windows' blocks sit at grid point `t`: the row windows at block row `t`, the others at the origin. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- What grid point `t` writes back is block `t` of the perceptron of the whole arrays the region finds. -/
theorem flushed0 (c : Dev nD) (t : Fin cfg0.N) (b1 b2 : FVec Ideal S128 .f32)
    (hb1 : V c main_call0_v0 = shapeCast S1x128 b1 shapeCasts_S128_S1x128)
    (hb2 : V c main_call0_v1 = shapeCast S1x128 b2 shapeCasts_S128_S1x128) :
    (dat0 (F := Ideal) V c).flushed 6 t = ((cfg0.win 6).blk t).view.read (Elt Ideal)
      (Cert.Gin.mlp1 (F := Ideal) (V c main_arg0) (V c main_v13) (V c main_arg4) b1 (V c main_arg6) b2) := by
  show (cfg0.win 6).cut (grid0.coords t) ((dat0 V c).after 6 t) = _
  rw [after0_6]
  unfold out0_6
  rw [View.canon_unit_zero zero_off0]
  simp only [View.ld_unit_zero (S := S2000x1) zero_off0, View.ld_unit_zero (S := S2000x128) zero_off0,
    View.ld_unit_zero (S := S128x128) zero_off0, View.ld_unit_zero (S := S1x128) zero_off0]
  obtain ⟨e00, e01, e10, e11, e20, e21, e30, e31, e40, e41, e50, e51, e60, e61⟩ := idx0 t
  have ht : t.val < 50 := lt_of_lt_of_eq t.isLt N_0
  funext j
  obtain ⟨p, q, rfl⟩ : ∃ (p : Fin 2000) (q : Fin 128), (j : S2000x128.Idx) = ix2 p q := ⟨_, _, eq_ix2 _⟩
  have hR : t.val * 2000 + p.val < 100000 := by have := p.isLt; omega
  show k0_pay1 (F := Ideal) (iblk0 V c 0 t) (iblk0 V c 1 t) (iblk0 V c 2 t) (iblk0 V c 3 t) (iblk0 V c 4 t) (iblk0 V c 5 t) (ix2 p q)
      = Cert.Gin.mlp1 (F := Ideal) (V c main_arg0) (V c main_v13) (V c main_arg4) b1 (V c main_arg6) b2
          (((cfg0.win 6).blk t).view.emb (ix2 p q))
  refine (block_is_rows0 (iblk0 V c 0 t) (iblk0 V c 1 t) (iblk0 V c 2 t) (iblk0 V c 3 t) (iblk0 V c 4 t) (iblk0 V c 5 t)
    (V c main_arg0) (V c main_v13) (V c main_arg4) b1 (V c main_arg6) b2 ⟨t.val * 2000 + p.val, hR⟩ p ?_ ?_ ?_ ?_ ?_ ?_ q).trans ?_
  · intro k
    show V c main_arg0 (((cfg0.win 0).blk t).view.emb (ix2 p k)) = V c main_arg0 (ix2 _ k)
    congr 1; funext a; apply Fin.ext
    match a with
    | ⟨0, _⟩ => show win0_0.index t (0 : Fin 2) * 2000 + 1 * p.val = t.val * 2000 + p.val; omega
    | ⟨1, _⟩ => show win0_0.index t (1 : Fin 2) * 1 + 1 * k.val = k.val; omega
  · intro k
    show V c main_v13 (((cfg0.win 1).blk t).view.emb (ix2 p k)) = V c main_v13 (ix2 _ k)
    congr 1; funext a; apply Fin.ext
    match a with
    | ⟨0, _⟩ => show win0_1.index t (0 : Fin 2) * 2000 + 1 * p.val = t.val * 2000 + p.val; omega
    | ⟨1, _⟩ => show win0_1.index t (1 : Fin 2) * 1 + 1 * k.val = k.val; omega
  · funext y
    show V c main_arg4 (((cfg0.win 2).blk t).view.emb y) = V c main_arg4 y
    congr 1; funext a; apply Fin.ext
    match a with
    | ⟨0, _⟩ => show win0_2.index t (0 : Fin 2) * 1 + 1 * (y 0).val = (y 0).val; omega
    | ⟨1, _⟩ => show win0_2.index t (1 : Fin 2) * 128 + 1 * (y 1).val = (y 1).val; omega
  · rw [← hb1]
    funext y
    show V c main_call0_v0 (((cfg0.win 3).blk t).view.emb y) = V c main_call0_v0 y
    congr 1; funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  · funext y
    show V c main_arg6 (((cfg0.win 4).blk t).view.emb y) = V c main_arg6 y
    congr 1; funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  · rw [← hb2]
    funext y
    show V c main_call0_v1 (((cfg0.win 5).blk t).view.emb y) = V c main_call0_v1 y
    congr 1; funext a; apply Fin.ext
    match a with
    | ⟨0, _⟩ => show win0_5.index t (0 : Fin 2) * 1 + 1 * (y 0).val = (y 0).val; omega
    | ⟨1, _⟩ => show win0_5.index t (1 : Fin 2) * 128 + 1 * (y 1).val = (y 1).val; omega
  · congr 1; funext a; apply Fin.ext
    match a with
    | ⟨0, _⟩ => show t.val * 2000 + p.val = win0_6.index t (0 : Fin 2) * 2000 + 1 * p.val; omega
    | ⟨1, _⟩ => show q.val = win0_6.index t (1 : Fin 2) * 128 + 1 * q.val; omega

/-- An index of the output array is in point `t`'s block iff each coordinate is in the block's range on its axis. -/
theorem mem_blk0 (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v14).slice (win0_6.rect t)).set ↔ _
  rw [View.set_slice_whole, Rect.mem_set_unit]
  exact Iff.rfl

/-- Every row of the output array is in the block of the point that is its row number divided by 2000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 50 := N_0
  have hlt : (i 0).val / 2000 < cfg0.N := by rw [hN]; omega
  refine ⟨⟨(i 0).val / 2000, hlt⟩, flush0_6 _, ?_⟩
  rw [mem_blk0]
  obtain ⟨-, -, -, -, -, -, -, -, -, -, -, -, e60, e61⟩ := idx0 ⟨(i 0).val / 2000, hlt⟩
  have e60' : win0_6.index ⟨(i 0).val / 2000, hlt⟩ (0 : Fin 2) = (i 0).val / 2000 := e60
  intro a
  match a with
  | ⟨0, _⟩ =>
    show win0_6.index ⟨(i 0).val / 2000, hlt⟩ (0 : Fin 2) * 2000 ≤ (i 0).val
      ∧ (i 0).val < win0_6.index ⟨(i 0).val / 2000, hlt⟩ (0 : Fin 2) * 2000 + 2000
    omega
  | ⟨1, _⟩ =>
    show win0_6.index ⟨(i 0).val / 2000, hlt⟩ (1 : Fin 2) * 128 ≤ (i 1).val
      ∧ (i 1).val < win0_6.index ⟨(i 0).val / 2000, hlt⟩ (1 : Fin 2) * 128 + 128
    omega

/-- THE OUTPUT ARRAY after the region: the perceptron of the whole arrays the region finds, the biases read through
    their one-row reshapes. -/
theorem final0 (c : Dev nD) (b1 b2 : FVec Ideal S128 .f32)
    (hb1 : V c main_call0_v0 = shapeCast S1x128 b1 shapeCasts_S128_S1x128)
    (hb2 : V c main_call0_v1 = shapeCast S1x128 b2 shapeCasts_S128_S1x128) :
    (dat0 (F := Ideal) V c).arrAt 6 cfg0.N
      = Cert.Gin.mlp1 (F := Ideal) (V c main_arg0) (V c main_v13) (V c main_arg4) b1 (V c main_arg6) b2 :=
  (dat0 (F := Ideal) V c).arrAt_eq_of_cover 6 _ (fun t _ => flushed0 V c t b1 b2 hb1 hb2) cover0

end Cert.KernelIdeal.RegionValue

end
-- ==== Proof.Region1.lean ====
/-
  What the second round's kernel region leaves in its output array.

  The region walks 50 blocks of 2000 node rows. At block `t` the body reads rows `2000 t … 2000 t + 1999` of the
  features and of the neighbour sums, both weight matrices and both one-row biases whole, and writes the perceptron
  of those rows to the same rows of the output. Row `r` of the perceptron depends on row `r` of its two row operands
  alone, so the blocks together are the perceptron of the whole arrays.
-/
import proofs.«164992_j38474317038530_1_alg».proof.Proof.Gen.KernelIdeal.Frame
import proofs.«164992_j38474317038530_1_alg».proof.Proof.Spec
import proofs.«164992_j38474317038530_1_alg».proof.Proof.LibMlpRows
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.DenseRows Cert.MlpRows
open Idealize.ShloMosaic.Pipeline (Dat)

theorem zero_off : (![0, 0] : Fin 2 → Nat) = fun _ => 0 := funext fun a => by fin_cases a <;> rfl

/-- Row `p` of the body's stored value, from the rows of its loaded blocks. -/
theorem pay1_row (x0 x1 : Vec Ideal S2000x128 .f32) (x2 : Vec Ideal S128x128 .f32) (x3 : Vec Ideal S1x128 .f32)
    (x4 : Vec Ideal S128x128 .f32) (x5 : Vec Ideal S1x128 .f32) (p : Fin 2000) :
    row (k1_pay1 (F := Ideal) x0 x1 x2 x3 x4 x5) p
      = mlpRow (fun k => row x0 p k + row x1 p k) (mat x2) (row x3 (0 : Fin 1)) (mat x4) (row x5 (0 : Fin 1)) := by
  unfold k1_pay1
  simp only [shapeCast_self]
  exact block_row _ rfl _ rfl x0 x1 x2 x3 x4 x5 _ _ p

/-- A vector reshaped to a one-row matrix: its only row is the vector. -/
theorem row_reshape (b : FVec Ideal S128 .f32) :
    row (shapeCast S1x128 b shapeCasts_S128_S1x128) (0 : Fin 1) = vec b := by
  funext n
  show shapeCast S1x128 b shapeCasts_S128_S1x128 (ix2 (0 : Fin 1) n) = b (ix1 n)
  rw [shapeCast_a_1a_apply]

/-- Row `r` of the specification's perceptron over all rows. -/
theorem mlp_row (h a : FVec Ideal S100000x128 .f32) (W1 : FVec Ideal S128x128 .f32) (b1 : FVec Ideal S128 .f32)
    (W2 : FVec Ideal S128x128 .f32) (b2 : FVec Ideal S128 .f32) (r : Fin 100000) :
    row (Cert.Gin.mlp (F := Ideal) h a W1 b1 W2 b2) r
      = mlpRow (fun k => row h r k + row a r k) (mat W1) (vec b1) (mat W2) (vec b2) := by
  unfold Cert.Gin.mlp Cert.Gin.biasRows Cert.Gin.zeros
  exact whole_row _ rfl _ rfl h a W1 b1 W2 b2 _ _ _ _ r

/-- Row `p` of a block whose row operands hold row `r` of the whole arrays there, and whose other operands are the
    weights and the reshaped biases, is row `r` of the perceptron over all rows. -/
theorem block_is_rows (X0 X1 : Vec Ideal S2000x128 .f32) (X2 : Vec Ideal S128x128 .f32) (X3 : Vec Ideal S1x128 .f32)
    (X4 : Vec Ideal S128x128 .f32) (X5 : Vec Ideal S1x128 .f32)
    (h a : FVec Ideal S100000x128 .f32) (W1 : FVec Ideal S128x128 .f32) (b1 : FVec Ideal S128 .f32)
    (W2 : FVec Ideal S128x128 .f32) (b2 : FVec Ideal S128 .f32) (r : Fin 100000) (p : Fin 2000)
    (h0 : ∀ k : Fin 128, X0 (ix2 p k) = h (ix2 r k)) (h1 : ∀ k : Fin 128, X1 (ix2 p k) = a (ix2 r k))
    (h2 : X2 = W1) (h3 : X3 = shapeCast S1x128 b1 shapeCasts_S128_S1x128)
    (h4 : X4 = W2) (h5 : X5 = shapeCast S1x128 b2 shapeCasts_S128_S1x128) (q : Fin 128) :
    k1_pay1 (F := Ideal) X0 X1 X2 X3 X4 X5 (ix2 p q) = Cert.Gin.mlp (F := Ideal) h a W1 b1 W2 b2 (ix2 r q) := by
  have hl := congrFun (pay1_row X0 X1 X2 X3 X4 X5 p) q
  have hr := congrFun (mlp_row h a W1 b1 W2 b2 r) q
  refine hl.trans (Eq.trans ?_ hr.symm)
  subst h2 h3 h4 h5
  rw [row_reshape, row_reshape]
  have hz : (fun k => row X0 p k + row X1 p k) = fun k => row h r k + row a r k :=
    funext fun k => congrArg₂ (· + ·) (h0 k) (h1 k)
  rw [hz]

/-- Where the windows' blocks sit at grid point `t`: the row windows at block row `t`, the others at the origin. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What grid point `t` writes back is block `t` of the perceptron of the whole arrays the region finds. -/
theorem flushed1 (c : Dev nD) (t : Fin cfg1.N) (b1 b2 : FVec Ideal S128 .f32)
    (hb1 : V c main_call1_v0 = shapeCast S1x128 b1 shapeCasts_S128_S1x128)
    (hb2 : V c main_call1_v1 = shapeCast S1x128 b2 shapeCasts_S128_S1x128) :
    (dat1 (F := Ideal) V c).flushed 6 t = ((cfg1.win 6).blk t).view.read (Elt Ideal)
      (Cert.Gin.mlp (F := Ideal) (V c main_v14) (V c main_v32) (V c main_v16) b1 (V c main_v20) b2) := by
  show (cfg1.win 6).cut (grid1.coords t) ((dat1 V c).after 6 t) = _
  rw [after1_6]
  unfold out1_6
  rw [View.canon_unit_zero zero_off]
  simp only [View.ld_unit_zero (S := S2000x128) zero_off, View.ld_unit_zero (S := S128x128) zero_off,
    View.ld_unit_zero (S := S1x128) zero_off]
  obtain ⟨e00, e01, e10, e11, e20, e21, e30, e31, e40, e41, e50, e51, e60, e61⟩ := idx1 t
  have ht : t.val < 50 := lt_of_lt_of_eq t.isLt N_1
  funext j
  obtain ⟨p, q, rfl⟩ : ∃ (p : Fin 2000) (q : Fin 128), (j : S2000x128.Idx) = ix2 p q := ⟨_, _, eq_ix2 _⟩
  have hR : t.val * 2000 + p.val < 100000 := by have := p.isLt; omega
  show k1_pay1 (F := Ideal) (iblk1 V c 0 t) (iblk1 V c 1 t) (iblk1 V c 2 t) (iblk1 V c 3 t) (iblk1 V c 4 t) (iblk1 V c 5 t) (ix2 p q)
      = Cert.Gin.mlp (F := Ideal) (V c main_v14) (V c main_v32) (V c main_v16) b1 (V c main_v20) b2
          (((cfg1.win 6).blk t).view.emb (ix2 p q))
  refine (block_is_rows (iblk1 V c 0 t) (iblk1 V c 1 t) (iblk1 V c 2 t) (iblk1 V c 3 t) (iblk1 V c 4 t) (iblk1 V c 5 t)
    (V c main_v14) (V c main_v32) (V c main_v16) b1 (V c main_v20) b2 ⟨t.val * 2000 + p.val, hR⟩ p ?_ ?_ ?_ ?_ ?_ ?_ q).trans ?_
  · intro k
    show V c main_v14 (((cfg1.win 0).blk t).view.emb (ix2 p k)) = V c main_v14 (ix2 _ k)
    congr 1; funext a; apply Fin.ext
    match a with
    | ⟨0, _⟩ => show win1_0.index t (0 : Fin 2) * 2000 + 1 * p.val = t.val * 2000 + p.val; omega
    | ⟨1, _⟩ => show win1_0.index t (1 : Fin 2) * 128 + 1 * k.val = k.val; omega
  · intro k
    show V c main_v32 (((cfg1.win 1).blk t).view.emb (ix2 p k)) = V c main_v32 (ix2 _ k)
    congr 1; funext a; apply Fin.ext
    match a with
    | ⟨0, _⟩ => show win1_1.index t (0 : Fin 2) * 2000 + 1 * p.val = t.val * 2000 + p.val; omega
    | ⟨1, _⟩ => show win1_1.index t (1 : Fin 2) * 128 + 1 * k.val = k.val; omega
  · funext y
    show V c main_v16 (((cfg1.win 2).blk t).view.emb y) = V c main_v16 y
    congr 1; funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  · rw [← hb1]
    funext y
    show V c main_call1_v0 (((cfg1.win 3).blk t).view.emb y) = V c main_call1_v0 y
    congr 1; funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega
  · funext y
    show V c main_v20 (((cfg1.win 4).blk t).view.emb y) = V c main_v20 y
    congr 1; funext a; apply Fin.ext
    match a with
    | ⟨0, _⟩ => show win1_4.index t (0 : Fin 2) * 128 + 1 * (y 0).val = (y 0).val; omega
    | ⟨1, _⟩ => show win1_4.index t (1 : Fin 2) * 128 + 1 * (y 1).val = (y 1).val; omega
  · rw [← hb2]
    funext y
    show V c main_call1_v1 (((cfg1.win 5).blk t).view.emb y) = V c main_call1_v1 y
    congr 1; funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega
  · congr 1; funext a; apply Fin.ext
    match a with
    | ⟨0, _⟩ => show t.val * 2000 + p.val = win1_6.index t (0 : Fin 2) * 2000 + 1 * p.val; omega
    | ⟨1, _⟩ => show q.val = win1_6.index t (1 : Fin 2) * 128 + 1 * q.val; omega

/-- An index of the output array is in point `t`'s block iff each coordinate is in the block's range on its axis. -/
theorem mem_blk1 (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v33).slice (win1_6.rect t)).set ↔ _
  rw [View.set_slice_whole, Rect.mem_set_unit]
  exact Iff.rfl

/-- Every row of the output array is in the block of the point that is its row number divided by 2000. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 50 := N_1
  have hlt : (i 0).val / 2000 < cfg1.N := by rw [hN]; omega
  refine ⟨⟨(i 0).val / 2000, hlt⟩, flush1_6 _, ?_⟩
  rw [mem_blk1]
  obtain ⟨-, -, -, -, -, -, -, -, -, -, -, -, e60, e61⟩ := idx1 ⟨(i 0).val / 2000, hlt⟩
  have e60' : win1_6.index ⟨(i 0).val / 2000, hlt⟩ (0 : Fin 2) = (i 0).val / 2000 := e60
  intro a
  match a with
  | ⟨0, _⟩ =>
    show win1_6.index ⟨(i 0).val / 2000, hlt⟩ (0 : Fin 2) * 2000 ≤ (i 0).val
      ∧ (i 0).val < win1_6.index ⟨(i 0).val / 2000, hlt⟩ (0 : Fin 2) * 2000 + 2000
    omega
  | ⟨1, _⟩ =>
    show win1_6.index ⟨(i 0).val / 2000, hlt⟩ (1 : Fin 2) * 128 ≤ (i 1).val
      ∧ (i 1).val < win1_6.index ⟨(i 0).val / 2000, hlt⟩ (1 : Fin 2) * 128 + 128
    omega

/-- THE OUTPUT ARRAY after the region: the perceptron of the whole arrays the region finds, the biases read through
    their one-row reshapes. -/
theorem final1 (c : Dev nD) (b1 b2 : FVec Ideal S128 .f32)
    (hb1 : V c main_call1_v0 = shapeCast S1x128 b1 shapeCasts_S128_S1x128)
    (hb2 : V c main_call1_v1 = shapeCast S1x128 b2 shapeCasts_S128_S1x128) :
    (dat1 (F := Ideal) V c).arrAt 6 cfg1.N
      = Cert.Gin.mlp (F := Ideal) (V c main_v14) (V c main_v32) (V c main_v16) b1 (V c main_v20) b2 :=
  (dat1 (F := Ideal) V c).arrAt_eq_of_cover 6 _ (fun t _ => flushed1 V c t b1 b2 hb1 hb2) cover1

end Cert.KernelIdeal.RegionValue

end
-- ==== Proof.Region2.lean ====
/-
  What the third round's kernel region leaves in its output array.

  The region walks 50 blocks of 2000 node rows. At block `t` the body reads rows `2000 t … 2000 t + 1999` of the
  features and of the neighbour sums, both weight matrices and both one-row biases whole, and writes the perceptron
  of those rows to the same rows of the output. Row `r` of the perceptron depends on row `r` of its two row operands
  alone, so the blocks together are the perceptron of the whole arrays.
-/
import proofs.«164992_j38474317038530_1_alg».proof.Proof.Gen.KernelIdeal.Frame
import proofs.«164992_j38474317038530_1_alg».proof.Proof.Spec
import proofs.«164992_j38474317038530_1_alg».proof.Proof.LibMlpRows
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.DenseRows Cert.MlpRows
open Idealize.ShloMosaic.Pipeline (Dat)

theorem zero_off2 : (![0, 0] : Fin 2 → Nat) = fun _ => 0 := funext fun a => by fin_cases a <;> rfl

/-- Row `p` of the body's stored value, from the rows of its loaded blocks. -/
theorem pay2_row (x0 x1 : Vec Ideal S2000x128 .f32) (x2 : Vec Ideal S128x128 .f32) (x3 : Vec Ideal S1x128 .f32)
    (x4 : Vec Ideal S128x128 .f32) (x5 : Vec Ideal S1x128 .f32) (p : Fin 2000) :
    row (k2_pay1 (F := Ideal) x0 x1 x2 x3 x4 x5) p
      = mlpRow (fun k => row x0 p k + row x1 p k) (mat x2) (row x3 (0 : Fin 1)) (mat x4) (row x5 (0 : Fin 1)) := by
  unfold k2_pay1
  simp only [shapeCast_self]
  exact block_row _ rfl _ rfl x0 x1 x2 x3 x4 x5 _ _ p

/-- A vector reshaped to a one-row matrix: its only row is the vector. -/
theorem row_reshape2 (b : FVec Ideal S128 .f32) :
    row (shapeCast S1x128 b shapeCasts_S128_S1x128) (0 : Fin 1) = vec b := by
  funext n
  show shapeCast S1x128 b shapeCasts_S128_S1x128 (ix2 (0 : Fin 1) n) = b (ix1 n)
  rw [shapeCast_a_1a_apply]

/-- Row `r` of the specification's perceptron over all rows. -/
theorem mlp_row2 (h a : FVec Ideal S100000x128 .f32) (W1 : FVec Ideal S128x128 .f32) (b1 : FVec Ideal S128 .f32)
    (W2 : FVec Ideal S128x128 .f32) (b2 : FVec Ideal S128 .f32) (r : Fin 100000) :
    row (Cert.Gin.mlp (F := Ideal) h a W1 b1 W2 b2) r
      = mlpRow (fun k => row h r k + row a r k) (mat W1) (vec b1) (mat W2) (vec b2) := by
  unfold Cert.Gin.mlp Cert.Gin.biasRows Cert.Gin.zeros
  exact whole_row _ rfl _ rfl h a W1 b1 W2 b2 _ _ _ _ r

/-- Row `p` of a block whose row operands hold row `r` of the whole arrays there, and whose other operands are the
    weights and the reshaped biases, is row `r` of the perceptron over all rows. -/
theorem block_is_rows2 (X0 X1 : Vec Ideal S2000x128 .f32) (X2 : Vec Ideal S128x128 .f32) (X3 : Vec Ideal S1x128 .f32)
    (X4 : Vec Ideal S128x128 .f32) (X5 : Vec Ideal S1x128 .f32)
    (h a : FVec Ideal S100000x128 .f32) (W1 : FVec Ideal S128x128 .f32) (b1 : FVec Ideal S128 .f32)
    (W2 : FVec Ideal S128x128 .f32) (b2 : FVec Ideal S128 .f32) (r : Fin 100000) (p : Fin 2000)
    (h0 : ∀ k : Fin 128, X0 (ix2 p k) = h (ix2 r k)) (h1 : ∀ k : Fin 128, X1 (ix2 p k) = a (ix2 r k))
    (h2 : X2 = W1) (h3 : X3 = shapeCast S1x128 b1 shapeCasts_S128_S1x128)
    (h4 : X4 = W2) (h5 : X5 = shapeCast S1x128 b2 shapeCasts_S128_S1x128) (q : Fin 128) :
    k2_pay1 (F := Ideal) X0 X1 X2 X3 X4 X5 (ix2 p q) = Cert.Gin.mlp (F := Ideal) h a W1 b1 W2 b2 (ix2 r q) := by
  have hl := congrFun (pay2_row X0 X1 X2 X3 X4 X5 p) q
  have hr := congrFun (mlp_row2 h a W1 b1 W2 b2 r) q
  refine hl.trans (Eq.trans ?_ hr.symm)
  subst h2 h3 h4 h5
  rw [row_reshape2, row_reshape2]
  have hz : (fun k => row X0 p k + row X1 p k) = fun k => row h r k + row a r k :=
    funext fun k => congrArg₂ (· + ·) (h0 k) (h1 k)
  rw [hz]

/-- Where the windows' blocks sit at grid point `t`: the row windows at block row `t`, the others at the origin. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- What grid point `t` writes back is block `t` of the perceptron of the whole arrays the region finds. -/
theorem flushed2 (c : Dev nD) (t : Fin cfg2.N) (b1 b2 : FVec Ideal S128 .f32)
    (hb1 : V c main_call2_v0 = shapeCast S1x128 b1 shapeCasts_S128_S1x128)
    (hb2 : V c main_call2_v1 = shapeCast S1x128 b2 shapeCasts_S128_S1x128) :
    (dat2 (F := Ideal) V c).flushed 6 t = ((cfg2.win 6).blk t).view.read (Elt Ideal)
      (Cert.Gin.mlp (F := Ideal) (V c main_v33) (V c main_v51) (V c main_v35) b1 (V c main_v39) b2) := by
  show (cfg2.win 6).cut (grid2.coords t) ((dat2 V c).after 6 t) = _
  rw [after2_6]
  unfold out2_6
  rw [View.canon_unit_zero zero_off2]
  simp only [View.ld_unit_zero (S := S2000x128) zero_off2, View.ld_unit_zero (S := S128x128) zero_off2,
    View.ld_unit_zero (S := S1x128) zero_off2]
  obtain ⟨e00, e01, e10, e11, e20, e21, e30, e31, e40, e41, e50, e51, e60, e61⟩ := idx2 t
  have ht : t.val < 50 := lt_of_lt_of_eq t.isLt N_2
  funext j
  obtain ⟨p, q, rfl⟩ : ∃ (p : Fin 2000) (q : Fin 128), (j : S2000x128.Idx) = ix2 p q := ⟨_, _, eq_ix2 _⟩
  have hR : t.val * 2000 + p.val < 100000 := by have := p.isLt; omega
  show k2_pay1 (F := Ideal) (iblk2 V c 0 t) (iblk2 V c 1 t) (iblk2 V c 2 t) (iblk2 V c 3 t) (iblk2 V c 4 t) (iblk2 V c 5 t) (ix2 p q)
      = Cert.Gin.mlp (F := Ideal) (V c main_v33) (V c main_v51) (V c main_v35) b1 (V c main_v39) b2
          (((cfg2.win 6).blk t).view.emb (ix2 p q))
  refine (block_is_rows2 (iblk2 V c 0 t) (iblk2 V c 1 t) (iblk2 V c 2 t) (iblk2 V c 3 t) (iblk2 V c 4 t) (iblk2 V c 5 t)
    (V c main_v33) (V c main_v51) (V c main_v35) b1 (V c main_v39) b2 ⟨t.val * 2000 + p.val, hR⟩ p ?_ ?_ ?_ ?_ ?_ ?_ q).trans ?_
  · intro k
    show V c main_v33 (((cfg2.win 0).blk t).view.emb (ix2 p k)) = V c main_v33 (ix2 _ k)
    congr 1; funext a; apply Fin.ext
    match a with
    | ⟨0, _⟩ => show win2_0.index t (0 : Fin 2) * 2000 + 1 * p.val = t.val * 2000 + p.val; omega
    | ⟨1, _⟩ => show win2_0.index t (1 : Fin 2) * 128 + 1 * k.val = k.val; omega
  · intro k
    show V c main_v51 (((cfg2.win 1).blk t).view.emb (ix2 p k)) = V c main_v51 (ix2 _ k)
    congr 1; funext a; apply Fin.ext
    match a with
    | ⟨0, _⟩ => show win2_1.index t (0 : Fin 2) * 2000 + 1 * p.val = t.val * 2000 + p.val; omega
    | ⟨1, _⟩ => show win2_1.index t (1 : Fin 2) * 128 + 1 * k.val = k.val; omega
  · funext y
    show V c main_v35 (((cfg2.win 2).blk t).view.emb y) = V c main_v35 y
    congr 1; funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  · rw [← hb1]
    funext y
    show V c main_call2_v0 (((cfg2.win 3).blk t).view.emb y) = V c main_call2_v0 y
    congr 1; funext a; apply Fin.ext
    match a with
    | ⟨0, _⟩ => show win2_3.index t (0 : Fin 2) * 1 + 1 * (y 0).val = (y 0).val; omega
    | ⟨1, _⟩ => show win2_3.index t (1 : Fin 2) * 128 + 1 * (y 1).val = (y 1).val; omega
  · funext y
    show V c main_v39 (((cfg2.win 4).blk t).view.emb y) = V c main_v39 y
    congr 1; funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  · rw [← hb2]
    funext y
    show V c main_call2_v1 (((cfg2.win 5).blk t).view.emb y) = V c main_call2_v1 y
    congr 1; funext a; apply Fin.ext
    match a with
    | ⟨0, _⟩ => show win2_5.index t (0 : Fin 2) * 1 + 1 * (y 0).val = (y 0).val; omega
    | ⟨1, _⟩ => show win2_5.index t (1 : Fin 2) * 128 + 1 * (y 1).val = (y 1).val; omega
  · congr 1; funext a; apply Fin.ext
    match a with
    | ⟨0, _⟩ => show t.val * 2000 + p.val = win2_6.index t (0 : Fin 2) * 2000 + 1 * p.val; omega
    | ⟨1, _⟩ => show q.val = win2_6.index t (1 : Fin 2) * 128 + 1 * q.val; omega

/-- An index of the output array is in point `t`'s block iff each coordinate is in the block's range on its axis. -/
theorem mem_blk2 (t : Fin cfg2.N) (i : S100000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v52).slice (win2_6.rect t)).set ↔ _
  rw [View.set_slice_whole, Rect.mem_set_unit]
  exact Iff.rfl

/-- Every row of the output array is in the block of the point that is its row number divided by 2000. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 50 := N_2
  have hlt : (i 0).val / 2000 < cfg2.N := by rw [hN]; omega
  refine ⟨⟨(i 0).val / 2000, hlt⟩, flush2_6 _, ?_⟩
  rw [mem_blk2]
  obtain ⟨-, -, -, -, -, -, -, -, -, -, -, -, e60, e61⟩ := idx2 ⟨(i 0).val / 2000, hlt⟩
  have e60' : win2_6.index ⟨(i 0).val / 2000, hlt⟩ (0 : Fin 2) = (i 0).val / 2000 := e60
  intro a
  match a with
  | ⟨0, _⟩ =>
    show win2_6.index ⟨(i 0).val / 2000, hlt⟩ (0 : Fin 2) * 2000 ≤ (i 0).val
      ∧ (i 0).val < win2_6.index ⟨(i 0).val / 2000, hlt⟩ (0 : Fin 2) * 2000 + 2000
    omega
  | ⟨1, _⟩ =>
    show win2_6.index ⟨(i 0).val / 2000, hlt⟩ (1 : Fin 2) * 128 ≤ (i 1).val
      ∧ (i 1).val < win2_6.index ⟨(i 0).val / 2000, hlt⟩ (1 : Fin 2) * 128 + 128
    omega

/-- THE OUTPUT ARRAY after the region: the perceptron of the whole arrays the region finds, the biases read through
    their one-row reshapes. -/
theorem final2 (c : Dev nD) (b1 b2 : FVec Ideal S128 .f32)
    (hb1 : V c main_call2_v0 = shapeCast S1x128 b1 shapeCasts_S128_S1x128)
    (hb2 : V c main_call2_v1 = shapeCast S1x128 b2 shapeCasts_S128_S1x128) :
    (dat2 (F := Ideal) V c).arrAt 6 cfg2.N
      = Cert.Gin.mlp (F := Ideal) (V c main_v33) (V c main_v51) (V c main_v35) b1 (V c main_v39) b2 :=
  (dat2 (F := Ideal) V c).arrAt_eq_of_cover 6 _ (fun t _ => flushed2 V c t b1 b2 hb1 hb2) cover2

end Cert.KernelIdeal.RegionValue

end
-- ==== Proof.KernelValue.lean ====
/-
  The kernel program's result, as the specification of its twelve argument arrays.

  The program's buffers are followed from the launch to the return: each host stretch computes the neighbour sums and
  the layer's weights from what is there (the same operations as the specification's stages), each kernel region
  leaves the perceptron of the arrays it finds in its output array, and the last stretch pools the third round's
  features. Composing the three rounds and the pooling gives `G` of the launch contents.
-/
import proofs.«164992_j38474317038530_1_alg».proof.Proof.Walk0
import proofs.«164992_j38474317038530_1_alg».proof.Proof.Walk1
import proofs.«164992_j38474317038530_1_alg».proof.Proof.Walk2
import proofs.«164992_j38474317038530_1_alg».proof.Proof.Walk3
import proofs.«164992_j38474317038530_1_alg».proof.Proof.Region0
import proofs.«164992_j38474317038530_1_alg».proof.Proof.Region1
import proofs.«164992_j38474317038530_1_alg».proof.Proof.Region2

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.Walk Cert.KernelIdeal.RegionValue

variable (m : (ℓ : Loc nD τ sig) → Buf (Elt Ideal) ℓ) (ρ : Dev nD → PrngReg)

/-- After the first region: the first round's features. -/
theorem round1_eq (c : Dev nD) :
    W3 m ρ c (Proc.devRef .tc main_v14)
      = Cert.Gin.round1 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (W3_arr m ρ c 6).trans ?_
  rw [final0 (V2 m ρ) c (m ((c : Thread nD τ).loc main_arg5)) (m ((c : Thread nD τ).loc main_arg7)) (L2_b1 m ρ c) (L2_b2 m ρ c)]
  rw [show V2 m ρ c main_arg0 = _ from L2_arg0 m ρ c, show V2 m ρ c main_v13 = _ from L2_v13 m ρ c,
    show V2 m ρ c main_arg4 = _ from L2_arg4 m ρ c, show V2 m ρ c main_arg6 = _ from L2_arg6 m ρ c]
  rfl

/-- After the second region: the second round's features, from the first round's. -/
theorem round2_eq (c : Dev nD) :
    W6 m ρ c (Proc.devRef .tc main_v33)
      = Cert.Gin.round (F := Ideal) (W3 m ρ c (Proc.devRef .tc main_v14)) (m ((c : Thread nD τ).loc main_arg1))
          (Cert.Gin.mat0 (m ((c : Thread nD τ).loc main_arg8))) (Cert.Gin.vec0 (m ((c : Thread nD τ).loc main_arg9))) (Cert.Gin.mat0 (m ((c : Thread nD τ).loc main_arg10))) (Cert.Gin.vec0 (m ((c : Thread nD τ).loc main_arg11))) := by
  refine (W6_arr m ρ c 6).trans ?_
  rw [final1 (V5 m ρ) c (Cert.Gin.vec0 (m ((c : Thread nD τ).loc main_arg9))) (Cert.Gin.vec0 (m ((c : Thread nD τ).loc main_arg11))) (L5_b1 m ρ c) (L5_b2 m ρ c)]
  rw [show V5 m ρ c main_v14 = _ from L5_v14 m ρ c, show V5 m ρ c main_v32 = _ from L5_v32 m ρ c,
    show V5 m ρ c main_v16 = _ from L5_v16 m ρ c, show V5 m ρ c main_v20 = _ from L5_v20 m ρ c]
  rfl

/-- After the third region: the third round's features, from the second round's. -/
theorem round3_eq (c : Dev nD) :
    W9 m ρ c (Proc.devRef .tc main_v52)
      = Cert.Gin.round (F := Ideal) (W6 m ρ c (Proc.devRef .tc main_v33)) (m ((c : Thread nD τ).loc main_arg1))
          (Cert.Gin.mat1 (m ((c : Thread nD τ).loc main_arg8))) (Cert.Gin.vec1 (m ((c : Thread nD τ).loc main_arg9))) (Cert.Gin.mat1 (m ((c : Thread nD τ).loc main_arg10))) (Cert.Gin.vec1 (m ((c : Thread nD τ).loc main_arg11))) := by
  refine (W9_arr m ρ c 6).trans ?_
  rw [final2 (V8 m ρ) c (Cert.Gin.vec1 (m ((c : Thread nD τ).loc main_arg9))) (Cert.Gin.vec1 (m ((c : Thread nD τ).loc main_arg11))) (L8_b1 m ρ c) (L8_b2 m ρ c)]
  rw [show V8 m ρ c main_v33 = _ from L8_v33 m ρ c, show V8 m ρ c main_v51 = _ from L8_v51 m ρ c,
    show V8 m ρ c main_v35 = _ from L8_v35 m ρ c, show V8 m ρ c main_v39 = _ from L8_v39 m ρ c]
  rfl

/-- The result buffer at the return: the specification of the launch contents. -/
theorem value (c : Dev nD) :
    W10 m ρ c (Proc.devRef .tc main_v58)
      = Cert.Gin.G (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [L10_v58 m ρ c, round3_eq m ρ c, round2_eq m ρ c, round1_eq m ρ c]
  rfl

end Cert.KernelIdeal.KernelValue

end
-- ==== Proof.RefValue.lean ====
/-
  The reference's run, read against the specification: the term its run states for the result is the
  specification's `G` of the argument arrays, stage for stage (the stages are the reference's own operations).
-/
import proofs.«164992_j38474317038530_1_alg».proof.Defs
import proofs.«164992_j38474317038530_1_alg».proof.Proof.Gen.ReferenceIdeal.Run
import proofs.«164992_j38474317038530_1_alg».proof.Proof.Spec

noncomputable section

namespace Cert.ReferenceIdeal.RefValue

open Idealize.ShloMosaic Idealize.ShloMosaic.TcCoe Idealize.SL.Sem Cert.ReferenceIdeal Cert.ReferenceIdeal.Gen

variable {F : FTy → Type} [FloatOps F]

/-- The specification at the launch contents of the reference's twelve arguments on device `c`. -/
def spec (m : (ℓ : Loc nD τ sig) → Buf (Elt F) ℓ) (c : Dev nD) : Buf (Elt F) ((c.tc : Thread nD τ).loc main_v88) :=
  Cert.Gin.G (F := F) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))

set_option maxRecDepth 8192 in
/-- The run's term for the result is the specification: every stage of `G` is one of the reference's operations,
    so the two unfold to the same expression. -/
theorem res_eq (m : (ℓ : Loc nD τ sig) → Buf (Elt F) ℓ) (c : Dev nD) :
    Cert.ReferenceIdeal.Value.res_main_v88 (F := F) m c = spec m c := by
  unfold Cert.ReferenceIdeal.Value.res_main_v88 spec Cert.Gin.G Cert.Gin.pool Cert.Gin.round Cert.Gin.round1 Cert.Gin.mlp Cert.Gin.mlp1
    Cert.Gin.nbrSum Cert.Gin.nbrSum1 Cert.Gin.biasRows Cert.Gin.zeros Cert.Gin.srcCol Cert.Gin.dstCol Cert.Gin.srcRow Cert.Gin.dstRow
    Cert.Gin.mat0 Cert.Gin.mat1 Cert.Gin.vec0 Cert.Gin.vec1
  rfl

end Cert.ReferenceIdeal.RefValue

end
-- ==== Proof.lean ====
/-
  The certificate: a graph network of three message-passing rounds followed by two sum-poolings, the per-node
  perceptron of each round computed by a kernel over blocks of 2000 node rows in one program and by whole-array
  contractions in the other.

  Both programs compute the specification `Cert.Gin.G` (Proof/Spec.lean) of the twelve argument arrays on the
  extended reals. The reference's run states its result as the specification's stages composed, which is `G` by
  unfolding (Proof/RefValue.lean). The kernel program's run is read buffer by buffer (Proof/KernelValue.lean): the
  host stretches are the specification's own stages, and each kernel region leaves the perceptron of the arrays it
  finds, because row `r` of the perceptron depends on row `r` of its row operands alone and a matrix product
  accumulated into zeros is the contraction the host computes (Proof/LibMlpRows.lean, Proof/Region0.lean …
  Region2.lean). Changes of float format are the identity on the extended reals, and no law beyond reading both
  spellings of a dense layer as one sum is used, so the precondition is never opened.
-/
import proofs.«164992_j38474317038530_1_alg».proof.Defs
import proofs.«164992_j38474317038530_1_alg».proof.Proof.Gen.Kernel
import proofs.«164992_j38474317038530_1_alg».proof.Proof.Gen.Kernel.Skeleton
import proofs.«164992_j38474317038530_1_alg».proof.Proof.Gen.Kernel.Launch
import proofs.«164992_j38474317038530_1_alg».proof.Proof.Gen.Kernel.Points
import proofs.«164992_j38474317038530_1_alg».proof.Proof.Gen.Kernel.Frame
import proofs.«164992_j38474317038530_1_alg».proof.Proof.Gen.KernelIdeal
import proofs.«164992_j38474317038530_1_alg».proof.Proof.Gen.KernelIdeal.Skeleton
import proofs.«164992_j38474317038530_1_alg».proof.Proof.Gen.KernelIdeal.Launch
import proofs.«164992_j38474317038530_1_alg».proof.Proof.Gen.KernelIdeal.Points
import proofs.«164992_j38474317038530_1_alg».proof.Proof.Gen.KernelIdeal.Frame
import proofs.«164992_j38474317038530_1_alg».proof.Proof.Gen.ReferenceIdeal
import proofs.«164992_j38474317038530_1_alg».proof.Proof.Gen.ReferenceIdeal.Run
import proofs.«164992_j38474317038530_1_alg».proof.Proof.Gen.Pre_finite_inputs
import proofs.«164992_j38474317038530_1_alg».proof.Proof.KernelRun
import proofs.«164992_j38474317038530_1_alg».proof.Proof.KernelValue
import proofs.«164992_j38474317038530_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- So does the program read on the extended reals. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel program is the printed one read on the extended reals: nothing was rewritten. -/
theorem preserves : Cert.preserves_Kernel_KernelIdeal := trivial

/-- From memories agreeing on the arguments both programs end with the specification of those arguments in their
    result buffers. -/
theorem algebraic : Cert.algebraic_KernelIdeal_ReferenceIdeal := by
  intro m ρ m' ρ' _ hagree
  refine ⟨fun c => Cert.Gin.G (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.KernelValue.value m ρ c), (h c).2⟩)
      (Cert.KernelIdeal.RunValue.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq m' c]
    unfold Cert.ReferenceIdeal.RefValue.spec
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
